-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x26 : Shape := ⟨3, ![64, 64, 26]⟩
abbrev S52x256 : Shape := ⟨2, ![52, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩

class Facts : Prop where
  bcast_S_S64x64x26 : S_.BroadcastsInDim S64x64x26 (![] : Fin 0 → Fin S64x64x26.rank)
  reducesTo_S64x64x26_S_d0_1_2 : S64x64x26.ReducesTo [0, 1, 2] S_
  h_S_ : 0 < S_.numel
  bcast_S_S52x256 : S_.BroadcastsInDim S52x256 (![] : Fin 0 → Fin S52x256.rank)
  reducesTo_S52x256_S_d0_1 : S52x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg11 : FVec F S256x256 .f32) (main_arg12 : FVec F S256 .f32) (main_arg13 : FVec F S256x32 .f32) (main_arg14 : FVec F S32 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x32 .f32 := Host.absf main_arg13
  let main_cst_24 : FVec F S_ .f32 := constant S_ .f32 0x7F800000#32
  let main_v65 : FVec F S256x32 .f32 := broadcastInDim S256x32 ![] bcast_S_S256x32 main_cst_24
  let main_v66 : IVec S256x32 1 := cmpf .olt main_v64 main_v65
  let main_c_25 : IVec S_ 1 := constantI S_ 1 1#1
  let main_v67 : IVec S_ 1 := (fun x v => Host.reduce IntOp.andi x v reducesTo_S256x32_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x32 .f32) (main_arg14 : FVec F S32 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x32 .f32) (main_arg14 : FVec F S32 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x64x26 .f32) (main_arg1 : FVec F S52x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x32 .f32) (main_arg14 : FVec F S32 .f32) : IVec S_ 1 :=
  let main_v0 : FVec F S64x64x26 .f32 := Host.absf main_arg0
  let main_cst : FVec F S_ .f32 := constant S_ .f32 0x7F800000#32
  let main_v1 : FVec F S64x64x26 .f32 := broadcastInDim S64x64x26 ![] bcast_S_S64x64x26 main_cst
  let main_v2 : IVec S64x64x26 1 := cmpf .olt main_v0 main_v1
  let main_c : IVec S_ 1 := constantI S_ 1 1#1
  let main_v3 : IVec S_ 1 := (fun x v => Host.reduce IntOp.andi x v reducesTo_S64x64x26_S_d0_1_2 h_S_) main_v2 main_c
  let main_v4 : FVec F S52x256 .f32 := Host.absf main_arg1
  let main_cst_0 : FVec F S_ .f32 := constant S_ .f32 0x7F800000#32
  let main_v5 : FVec F S52x256 .f32 := broadcastInDim S52x256 ![] bcast_S_S52x256 main_cst_0
  let main_v6 : IVec S52x256 1 := cmpf .olt main_v4 main_v5
  let main_c_1 : IVec S_ 1 := constantI S_ 1 1#1
  let main_v7 : IVec S_ 1 := (fun x v => Host.reduce IntOp.andi x v reducesTo_S52x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x64x26 : Shape := ⟨3, ![64, 64, 26]⟩
abbrev S52x256 : Shape := ⟨2, ![52, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S26x256 : Shape := ⟨2, ![26, 256]⟩
abbrev S64x32 : Shape := ⟨2, ![64, 32]⟩
abbrev S8x64x26 : Shape := ⟨3, ![8, 64, 26]⟩
abbrev S8x32 : Shape := ⟨2, ![8, 32]⟩
abbrev S4096x256 : Shape := ⟨2, ![4096, 256]⟩
abbrev S8x256 : Shape := ⟨2, ![8, 256]⟩
abbrev S1x64x26 : Shape := ⟨3, ![1, 64, 26]⟩
abbrev S64x26 : Shape := ⟨2, ![64, 26]⟩
abbrev S64x256 : Shape := ⟨2, ![64, 256]⟩
abbrev S64x1x256 : Shape := ⟨3, ![64, 1, 256]⟩
abbrev S1x64x256 : Shape := ⟨3, ![1, 64, 256]⟩
abbrev S64x64x256 : Shape := ⟨3, ![64, 64, 256]⟩
abbrev S1x1x256 : Shape := ⟨3, ![1, 1, 256]⟩
abbrev S1x256 : Shape := ⟨2, ![1, 256]⟩
abbrev S1x32 : Shape := ⟨2, ![1, 32]⟩

abbrev nBuf : Space → Nat
  | .hbm => 18
  | .vmem => 21
  | .smem => 0
  | _ => 0

abbrev bufTy : (tb : Table) → Fin (tcTables nBuf tb) → BufTy
  | .hbm, ⟨0, _⟩ => ⟨S64x64x26, .f32⟩
  | .hbm, ⟨1, _⟩ => ⟨S52x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x32, .f32⟩
  | .hbm, ⟨14, _⟩ => ⟨S32, .f32⟩
  | .hbm, ⟨15, _⟩ => ⟨S26x256, .f32⟩
  | .hbm, ⟨16, _⟩ => ⟨S26x256, .f32⟩
  | .hbm, ⟨17, _⟩ => ⟨S64x32, .f32⟩
  | .local _ .vmem, ⟨0, _⟩ => ⟨S8x64x26, .f32⟩
  | .local _ .vmem, ⟨1, _⟩ => ⟨S8x64x26, .f32⟩
  | .local _ .vmem, ⟨2, _⟩ => ⟨S26x256, .f32⟩
  | .local _ .vmem, ⟨3, _⟩ => ⟨S26x256, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S256x256, .f32⟩
  | .local _ .vmem, ⟨10, _⟩ => ⟨S256, .f32⟩
  | .local _ .vmem, ⟨11, _⟩ => ⟨S256x256, .f32⟩
  | .local _ .vmem, ⟨12, _⟩ => ⟨S256, .f32⟩
  | .local _ .vmem, ⟨13, _⟩ => ⟨S256x256, .f32⟩
  | .local _ .vmem, ⟨14, _⟩ => ⟨S256, .f32⟩
  | .local _ .vmem, ⟨15, _⟩ => ⟨S256x32, .f32⟩
  | .local _ .vmem, ⟨16, _⟩ => ⟨S32, .f32⟩
  | .local _ .vmem, ⟨17, _⟩ => ⟨S8x32, .f32⟩
  | .local _ .vmem, ⟨18, _⟩ => ⟨S8x32, .f32⟩
  | .local _ .vmem, ⟨19, _⟩ => ⟨S4096x256, .bf16⟩
  | .local _ .vmem, ⟨20, _⟩ => ⟨S8x256, .f32⟩
  | _, _ => ⟨S64x64x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S26x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S52x256_S26x256_0_0 : S52x256.Slices ![0, 0] S26x256
  slices_S52x256_S26x256_26_0 : S52x256.Slices ![26, 0] S26x256
  inb_S26x256_S26x256_0_0 : ∀ a, (![0, 0] : Fin 2 → Nat) a + S26x256.size a ≤ S26x256.size a
  h_S26x256 : 0 < S26x256.numel
  shapeCasts_S26x256_S26x256 : S26x256.ShapeCasts S26x256
  bitsLt_bf16_f32 : FTy.bits .bf16 < FTy.bits .f32
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  inb_S8x64x26_S1x64x26_0_0_0 : ∀ a, (![0, 0, 0] : Fin 3 → Nat) a + S1x64x26.size a ≤ S8x64x26.size a
  h_S1x64x26 : 0 < S1x64x26.numel
  shapeCasts_S1x64x26_S64x26 : S1x64x26.ShapeCasts S64x26
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  shapeCasts_S256_S1x1x256 : S256.ShapeCasts S1x1x256
  broadcasts_S1x1x256_S64x64x256 : S1x1x256.Broadcasts S64x64x256
  shapeCasts_S64x64x256_S4096x256 : S64x64x256.ShapeCasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  shapeCasts_S256_S1x256 : S256.ShapeCasts S1x256
  broadcasts_S1x256_S4096x256 : S1x256.Broadcasts S4096x256
  reduces_S4096x256_S256 : S4096x256.Reduces [0] S256
  inb_S8x256_S1x256_0_0 : ∀ a, (![0, 0] : Fin 2 → Nat) a + S1x256.size a ≤ S8x256.size a
  h_S1x256 : 0 < S1x256.numel
  shapeCasts_S1x256_S256 : S1x256.ShapeCasts S256
  inb_S8x64x26_S1x64x26_1_0_0 : ∀ a, (![1, 0, 0] : Fin 3 → Nat) a + S1x64x26.size a ≤ S8x64x26.size a
  inb_S8x256_S1x256_1_0 : ∀ a, (![1, 0] : Fin 2 → Nat) a + S1x256.size a ≤ S8x256.size a
  inb_S8x64x26_S1x64x26_2_0_0 : ∀ a, (![2, 0, 0] : Fin 3 → Nat) a + S1x64x26.size a ≤ S8x64x26.size a
  inb_S8x256_S1x256_2_0 : ∀ a, (![2, 0] : Fin 2 → Nat) a + S1x256.size a ≤ S8x256.size a
  inb_S8x64x26_S1x64x26_3_0_0 : ∀ a, (![3, 0, 0] : Fin 3 → Nat) a + S1x64x26.size a ≤ S8x64x26.size a
  inb_S8x256_S1x256_3_0 : ∀ a, (![3, 0] : Fin 2 → Nat) a + S1x256.size a ≤ S8x256.size a
  inb_S8x64x26_S1x64x26_4_0_0 : ∀ a, (![4, 0, 0] : Fin 3 → Nat) a + S1x64x26.size a ≤ S8x64x26.size a
  inb_S8x256_S1x256_4_0 : ∀ a, (![4, 0] : Fin 2 → Nat) a + S1x256.size a ≤ S8x256.size a
  inb_S8x64x26_S1x64x26_5_0_0 : ∀ a, (![5, 0, 0] : Fin 3 → Nat) a + S1x64x26.size a ≤ S8x64x26.size a
  inb_S8x256_S1x256_5_0 : ∀ a, (![5, 0] : Fin 2 → Nat) a + S1x256.size a ≤ S8x256.size a
  inb_S8x64x26_S1x64x26_6_0_0 : ∀ a, (![6, 0, 0] : Fin 3 → Nat) a + S1x64x26.size a ≤ S8x64x26.size a
  inb_S8x256_S1x256_6_0 : ∀ a, (![6, 0] : Fin 2 → Nat) a + S1x256.size a ≤ S8x256.size a
  inb_S8x64x26_S1x64x26_7_0_0 : ∀ a, (![7, 0, 0] : Fin 3 → Nat) a + S1x64x26.size a ≤ S8x64x26.size a
  inb_S8x256_S1x256_7_0 : ∀ a, (![7, 0] : Fin 2 → Nat) a + S1x256.size a ≤ S8x256.size a
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  inb_S8x256_S8x256_0_0 : ∀ a, (![0, 0] : Fin 2 → Nat) a + S8x256.size a ≤ S8x256.size a
  h_S8x256 : 0 < S8x256.numel
  broadcasts_S1x256_S8x256 : S1x256.Broadcasts S8x256
  shapeCasts_S32_S1x32 : S32.ShapeCasts S1x32
  broadcasts_S1x32_S8x32 : S1x32.Broadcasts S8x32
  inb_S8x32_S8x32_0_0 : ∀ a, (![0, 0] : Fin 2 → Nat) a + S8x32.size a ≤ S8x32.size a
  h_S8x32 : 0 < S8x32.numel
  dot_S64x26_S26x256_S64x256_1_0_0_1_n_n_wf : DotDims.WF S64x26 S26x256 S64x256 [1] [0] [0] [1] [] []
  dot_S4096x256_S256x256_S4096x256_1_0_0_1_n_n_wf : DotDims.WF S4096x256 S256x256 S4096x256 [1] [0] [0] [1] [] []
  dot_S8x256_S256x256_S8x256_1_0_0_1_n_n_wf : DotDims.WF S8x256 S256x256 S8x256 [1] [0] [0] [1] [] []
  dot_S8x256_S256x32_S8x32_1_0_0_1_n_n_wf : DotDims.WF S8x256 S256x32 S8x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x26.size a ≤ S64x64x26.size a
  hwx0_0 : ∀ i : grid0.Coords, EltTy.bits .f32 = 32 ∨ (Rect.block (s := S64x64x26) S8x64x26.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S26x256.size a ≤ S26x256.size a
  hwx0_1 : ∀ i : grid0.Coords, EltTy.bits .f32 = 32 ∨ (Rect.block (s := S26x256) S26x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S26x256.size a ≤ S26x256.size a
  hwx0_2 : ∀ i : grid0.Coords, EltTy.bits .f32 = 32 ∨ (Rect.block (s := S26x256) S26x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x32.size a ≤ S256x32.size a
  hwx0_14 : ∀ i : grid0.Coords, EltTy.bits .f32 = 32 ∨ (Rect.block (s := S256x32) S256x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32.size a ≤ S32.size a
  hwx0_15 : ∀ i : grid0.Coords, EltTy.bits .f32 = 32 ∨ (Rect.block (s := S32) S32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x32.size a ≤ S64x32.size a
  hwx0_16 : ∀ i : grid0.Coords, EltTy.bits .f32 = 32 ∨ (Rect.block (s := S64x32) S8x32.size (cc0_transform_16 i) (hinb0_16 i)).WholeWords (EltTy.packing .f32)

variable [Facts₀]

def dot_S64x26_S26x256_S64x256_1_0_0_1_n_n : DotDims S64x26 S26x256 S64x256 where
  lhsContracting := [1]
  rhsContracting := [0]
  lhsNonContracting := [0]
  rhsNonContracting := [1]
  lhsBatch := []
  rhsBatch := []
  wf := dot_S64x26_S26x256_S64x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x32_S8x32_1_0_0_1_n_n : DotDims S8x256 S256x32 S8x32 where
  lhsContracting := [1]
  rhsContracting := [0]
  lhsNonContracting := [0]
  rhsNonContracting := [1]
  lhsBatch := []
  rhsBatch := []
  wf := dot_S8x256_S256x32_S8x32_1_0_0_1_n_n_wf

abbrev win0_0 : Pipeline.Window sig grid0 :=
  Pipeline.Window.ofSpec (Memref.whole main_arg0) S8x64x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S26x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S26x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v2) S8x32.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S64x64x26 : Shape := ⟨3, ![64, 64, 26]⟩
abbrev S52x256 : Shape := ⟨2, ![52, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S64x1x64x26 : Shape := ⟨4, ![64, 1, 64, 26]⟩
abbrev S64x64x64x26 : Shape := ⟨4, ![64, 64, 64, 26]⟩
abbrev S64x64x1x26 : Shape := ⟨4, ![64, 64, 1, 26]⟩
abbrev S64x64x64x52 : Shape := ⟨4, ![64, 64, 64, 52]⟩
abbrev S262144x52 : Shape := ⟨2, ![262144, 52]⟩
abbrev S262144x256 : Shape := ⟨2, ![262144, 256]⟩
abbrev S1x256 : Shape := ⟨2, ![1, 256]⟩
abbrev S_ : Shape := ⟨0, ![]⟩
abbrev S64x4096x256 : Shape := ⟨3, ![64, 4096, 256]⟩
abbrev S64x256 : Shape := ⟨2, ![64, 256]⟩
abbrev S64x32 : Shape := ⟨2, ![64, 32]⟩
abbrev S1x32 : Shape := ⟨2, ![1, 32]⟩

abbrev nBuf : Space → Nat
  | .hbm => 70
  | .vmem => 0
  | .smem => 0
  | _ => 0

abbrev bufTy : (tb : Table) → Fin (tcTables nBuf tb) → BufTy
  | .hbm, ⟨0, _⟩ => ⟨S64x64x26, .f32⟩
  | .hbm, ⟨1, _⟩ => ⟨S52x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x32, .f32⟩
  | .hbm, ⟨14, _⟩ => ⟨S32, .f32⟩
  | .hbm, ⟨15, _⟩ => ⟨S64x1x64x26, .f32⟩
  | .hbm, ⟨16, _⟩ => ⟨S64x64x64x26, .f32⟩
  | .hbm, ⟨17, _⟩ => ⟨S64x64x1x26, .f32⟩
  | .hbm, ⟨18, _⟩ => ⟨S64x64x64x26, .f32⟩
  | .hbm, ⟨19, _⟩ => ⟨S64x64x64x52, .f32⟩
  | .hbm, ⟨20, _⟩ => ⟨S262144x52, .f32⟩
  | .hbm, ⟨21, _⟩ => ⟨S262144x256, .f32⟩
  | .hbm, ⟨22, _⟩ => ⟨S1x256, .f32⟩
  | .hbm, ⟨23, _⟩ => ⟨S262144x256, .f32⟩
  | .hbm, ⟨24, _⟩ => ⟨S262144x256, .f32⟩
  | .hbm, ⟨25, _⟩ => ⟨S_, .f32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S1x256, .f32⟩
  | .hbm, ⟨30, _⟩ => ⟨S262144x256, .f32⟩
  | .hbm, ⟨31, _⟩ => ⟨S262144x256, .f32⟩
  | .hbm, ⟨32, _⟩ => ⟨S_, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S1x256, .f32⟩
  | .hbm, ⟨37, _⟩ => ⟨S262144x256, .f32⟩
  | .hbm, ⟨38, _⟩ => ⟨S262144x256, .f32⟩
  | .hbm, ⟨39, _⟩ => ⟨S_, .f32⟩
  | .hbm, ⟨40, _⟩ => ⟨S262144x256, .f32⟩
  | .hbm, ⟨41, _⟩ => ⟨S262144x256, .f32⟩
  | .hbm, ⟨42, _⟩ => ⟨S262144x256, .f32⟩
  | .hbm, ⟨43, _⟩ => ⟨S1x256, .f32⟩
  | .hbm, ⟨44, _⟩ => ⟨S262144x256, .f32⟩
  | .hbm, ⟨45, _⟩ => ⟨S262144x256, .f32⟩
  | .hbm, ⟨46, _⟩ => ⟨S_, .f32⟩
  | .hbm, ⟨47, _⟩ => ⟨S262144x256, .f32⟩
  | .hbm, ⟨48, _⟩ => ⟨S262144x256, .f32⟩
  | .hbm, ⟨49, _⟩ => ⟨S64x4096x256, .f32⟩
  | .hbm, ⟨50, _⟩ => ⟨S_, .f32⟩
  | .hbm, ⟨51, _⟩ => ⟨S64x256, .f32⟩
  | .hbm, ⟨52, _⟩ => ⟨S64x256, .f32⟩
  | .hbm, ⟨53, _⟩ => ⟨S1x256, .f32⟩
  | .hbm, ⟨54, _⟩ => ⟨S64x256, .f32⟩
  | .hbm, ⟨55, _⟩ => ⟨S64x256, .f32⟩
  | .hbm, ⟨56, _⟩ => ⟨S_, .f32⟩
  | .hbm, ⟨57, _⟩ => ⟨S64x256, .f32⟩
  | .hbm, ⟨58, _⟩ => ⟨S64x256, .f32⟩
  | .hbm, ⟨59, _⟩ => ⟨S64x256, .f32⟩
  | .hbm, ⟨60, _⟩ => ⟨S1x256, .f32⟩
  | .hbm, ⟨61, _⟩ => ⟨S64x256, .f32⟩
  | .hbm, ⟨62, _⟩ => ⟨S64x256, .f32⟩
  | .hbm, ⟨63, _⟩ => ⟨S_, .f32⟩
  | .hbm, ⟨64, _⟩ => ⟨S64x256, .f32⟩
  | .hbm, ⟨65, _⟩ => ⟨S64x256, .f32⟩
  | .hbm, ⟨66, _⟩ => ⟨S64x32, .f32⟩
  | .hbm, ⟨67, _⟩ => ⟨S1x32, .f32⟩
  | .hbm, ⟨68, _⟩ => ⟨S64x32, .f32⟩
  | .hbm, ⟨69, _⟩ => ⟨S64x32, .f32⟩
  | _, _ => ⟨S64x64x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_cst : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_cst : Ref sig .tc := ⟨.hbm, 32, rfl⟩
abbrev main_call1_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call3_cst : Ref sig .tc := ⟨.hbm, 46, rfl⟩
abbrev main_call3_v0 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call4_cst : Ref sig .tc := ⟨.hbm, 56, rfl⟩
abbrev main_call4_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call5_cst : Ref sig .tc := ⟨.hbm, 63, rfl⟩
abbrev main_call5_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]

class Facts₀ : Prop where
  bcast_S64x64x26_S64x1x64x26_0_2_3 : S64x64x26.BroadcastsInDim S64x1x64x26 (![0, 2, 3] : Fin 3 → Fin S64x1x64x26.rank)
  bcast_S64x1x64x26_S64x64x64x26_0_1_2_3 : S64x1x64x26.BroadcastsInDim S64x64x64x26 (![0, 1, 2, 3] : Fin 4 → Fin S64x64x64x26.rank)
  bcast_S64x64x26_S64x64x1x26_0_1_3 : S64x64x26.BroadcastsInDim S64x64x1x26 (![0, 1, 3] : Fin 3 → Fin S64x64x1x26.rank)
  bcast_S64x64x1x26_S64x64x64x26_0_1_2_3 : S64x64x1x26.BroadcastsInDim S64x64x64x26 (![0, 1, 2, 3] : Fin 4 → Fin S64x64x64x26.rank)
  concatenates_S64x64x64x26_S64x64x64x26_S64x64x64x52_d3 : Shape.Concatenates [S64x64x64x26, S64x64x64x26] S64x64x64x52 3
  shapeCasts_S64x64x64x52_S262144x52 : S64x64x64x52.ShapeCasts S262144x52
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  shapeCasts_S262144x256_S64x4096x256 : S262144x256.ShapeCasts S64x4096x256
  reducesTo_S64x4096x256_S64x256_d1 : S64x4096x256.ReducesTo [1] S64x256
  h_S_ : 0 < S_.numel
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  dot_S262144x52_S52x256_S262144x256_1_0_0_1_n_n_wf : DotDims.WF S262144x52 S52x256 S262144x256 [1] [0] [0] [1] [] []
  dot_S262144x256_S256x256_S262144x256_1_0_0_1_n_n_wf : DotDims.WF S262144x256 S256x256 S262144x256 [1] [0] [0] [1] [] []
  dot_S64x256_S256x256_S64x256_1_0_0_1_n_n_wf : DotDims.WF S64x256 S256x256 S64x256 [1] [0] [0] [1] [] []
  dot_S64x256_S256x32_S64x32_1_0_0_1_n_n_wf : DotDims.WF S64x256 S256x32 S64x32 [1] [0] [0] [1] [] []

variable [Facts₀]

def dot_S262144x52_S52x256_S262144x256_1_0_0_1_n_n : DotDims S262144x52 S52x256 S262144x256 where
  lhsContracting := [1]
  rhsContracting := [0]
  lhsNonContracting := [0]
  rhsNonContracting := [1]
  lhsBatch := []
  rhsBatch := []
  wf := dot_S262144x52_S52x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf

class Facts : Prop extends Facts₀ where

variable [Facts]
-- ==== Proof.KernelBlock.lean ====
/-
  What one grid point of the kernel leaves in its output block, as a value.

  A grid point holds 8 batch entries. For each entry the body computes the first layer of all 4096 row pairs, three
  rectified dense layers in place in a 4096 x 256 buffer, and the buffer's column sums, which it puts in one row of an
  8 x 256 buffer; the last three layers then map that buffer to the 8 x 32 output block. The body is written out
  eight times, and the pieces of its text are cut at different places in each copy: the facts below say that the
  copies' pieces are the same functions, so that every entry's row is one expression in the entry's number.
-/
import proofs.«102810_j10711648436521_2_alg».proof.Proof.Gen.KernelIdeal.Frame
import Idealize.ShloMosaic.Lib.Pipeline.Value
import Idealize.ShloMosaic.Lib.WritesUnit
import Idealize.ShloMosaic.Lib.ValueIdx

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem zeros1 : (![0] : Fin 1 → ℕ) = fun _ => 0 := by
  funext a; match a with | ⟨0, _⟩ => rfl

theorem zeros2 : (![0, 0] : Fin 2 → ℕ) = fun _ => 0 := by
  funext a; match a with | ⟨0, _⟩ => rfl | ⟨1, _⟩ => rfl

/-! ## The copies' pieces are the same functions

  A hidden layer is `h ↦ rectify (h · W + b)`, the first layer `s ↦ rectify (s·Wb ⊕ s·Wa + b0)` over the row pairs, the
  pooling `h ↦ column sums of h`; where a copy's text is cut inside one of them, the two halves compose to it. -/

theorem hidden8 : @k0_pay8 F _ = @k0_pay7 F _ := rfl
theorem hidden9 : @k0_pay9 F _ = @k0_pay7 F _ := rfl
theorem hidden13 : @k0_pay13 F _ = @k0_pay7 F _ := rfl
theorem hidden17 : @k0_pay17 F _ = @k0_pay7 F _ := rfl
theorem hidden21 : @k0_pay21 F _ = @k0_pay7 F _ := rfl
theorem hidden22 : @k0_pay22 F _ = @k0_pay7 F _ := rfl
theorem hidden29 : @k0_pay29 F _ = @k0_pay7 F _ := rfl
theorem hidden30 : @k0_pay30 F _ = @k0_pay7 F _ := rfl
theorem hidden35 : @k0_pay35 F _ = @k0_pay7 F _ := rfl
theorem hidden36 : @k0_pay36 F _ = @k0_pay7 F _ := rfl
theorem hidden42 : @k0_pay42 F _ = @k0_pay7 F _ := rfl
theorem hidden43 : @k0_pay43 F _ = @k0_pay7 F _ := rfl
theorem hidden46 : @k0_pay46 F _ = @k0_pay7 F _ := rfl
theorem hidden49 : @k0_pay49 F _ = @k0_pay7 F _ := rfl
theorem hidden53 : @k0_pay53 F _ = @k0_pay7 F _ := rfl
theorem hidden54 : @k0_pay54 F _ = @k0_pay7 F _ := rfl
theorem hidden55 : @k0_pay55 F _ = @k0_pay7 F _ := rfl

theorem hidden_cut16 (W : FVec F S256x256 .bf16) (b : Vec F S256 .f32) (h : Vec F S4096x256 .bf16) :
    k0_pay16 (k0_pay14 W h) (k0_pay15 b) = k0_pay7 W b h := rfl
theorem hidden_cut24 (W : FVec F S256x256 .bf16) (b : Vec F S256 .f32) (h : Vec F S4096x256 .bf16) :
    k0_pay24 (k0_pay23 W b h) = k0_pay7 W b h := rfl
theorem hidden_cut28 (W : FVec F S256x256 .bf16) (b : Vec F S256 .f32) (h : Vec F S4096x256 .bf16) :
    k0_pay28 (k0_pay27 W b h) = k0_pay7 W b h := rfl
theorem hidden_cut48 (W : FVec F S256x256 .bf16) (b : Vec F S256 .f32) (h : Vec F S4096x256 .bf16) :
    k0_pay48 (k0_pay47 W b h) = k0_pay7 W b h := rfl
theorem hidden_cut37 (W : FVec F S256x256 .bf16) (b : Vec F S256 .f32) (h : Vec F S4096x256 .bf16) :
    k0_pay37 W b h (constant S4096x256 .f32 0x00000000#32) = k0_pay7 W b h := rfl
theorem hidden_cut41 (W : FVec F S256x256 .bf16) (b : Vec F S256 .f32) (h : Vec F S4096x256 .bf16) :
    k0_pay41 b (k0_pay40 W h) = k0_pay7 W b h := rfl

theorem first26 : @k0_pay26 F _ = @k0_pay12 F _ := rfl
theorem first39 : @k0_pay39 F _ = @k0_pay12 F _ := rfl
theorem first45 : @k0_pay45 F _ = @k0_pay12 F _ := rfl

theorem first_f32 (x1 x2 : Vec F S26x256 .f32) (b0 : Vec F S256 .f32) (s : Vec F S1x64x26 .f32) :
    k0_pay6 x1 x2 b0 s = k0_pay12 (k0_pay1 x1) (k0_pay2 x2) b0 s := rfl
theorem first_cut20 (wa wb : FVec F S26x256 .bf16) (b0 : Vec F S256 .f32) (s : Vec F S1x64x26 .f32) :
    k0_pay20 (k0_pay19 wa wb b0 s) (FloatOps.ofBits .f32 0x00000000#32) = k0_pay12 wa wb b0 s := rfl
theorem first_cut34 (wa wb : FVec F S26x256 .bf16) (b0 : Vec F S256 .f32) (s : Vec F S1x64x26 .f32) :
    k0_pay34 wb b0 (k0_pay32 s) (k0_pay33 wa s) (constant S64x256 .f32 0x00000000#32) = k0_pay12 wa wb b0 s := rfl
theorem first_cut52 (wa wb : FVec F S26x256 .bf16) (b0 : Vec F S256 .f32) (s : Vec F S1x64x26 .f32) :
    k0_pay52 (k0_pay51 wa wb b0 s) = k0_pay12 wa wb b0 s := rfl

theorem pool25 : @k0_pay25 F _ = @k0_pay18 F _ := rfl
theorem pool31 : @k0_pay31 F _ = @k0_pay18 F _ := rfl
theorem pool38 : @k0_pay38 F _ = @k0_pay18 F _ := rfl
theorem pool44 : @k0_pay44 F _ = @k0_pay18 F _ := rfl
theorem pool50 : @k0_pay50 F _ = @k0_pay18 F _ := rfl
theorem pool56 : @k0_pay56 F _ = @k0_pay18 F _ := rfl
theorem pool_cut11 (h : Vec F S4096x256 .bf16) : k0_pay11 (k0_pay10 h) = k0_pay18 h := rfl

/-! ## One entry's row, and the pooled buffer -/

/-- Entry `bi`'s 64 feature rows lie inside the block of 8 entries. -/
theorem slab_inb (bi : Fin 8) : ∀ a, (![bi.val, 0, 0] : Fin 3 → ℕ) a + S1x64x26.size a ≤ S8x64x26.size a := by
  intro a
  match a with
  | ⟨0, _⟩ => show bi.val + 1 ≤ 8; omega
  | ⟨1, _⟩ => exact Nat.le_refl _
  | ⟨2, _⟩ => exact Nat.le_refl _

/-- Row `i` of the pooled buffer lies inside it. -/
theorem row_inb (i : Fin 8) : ∀ a, (![i.val, 0] : Fin 2 → ℕ) a + S1x256.size a ≤ S8x256.size a := by
  intro a
  match a with
  | ⟨0, _⟩ => show i.val + 1 ≤ 8; omega
  | ⟨1, _⟩ => exact Nat.le_refl _

/-- Entry `bi`'s feature rows, cut out of the block's 8 entries. -/
def slab (x0 : Vec F S8x64x26 .f32) (bi : Fin 8) : Vec F S1x64x26 .f32 :=
  View.ld x0 (Rect.unit ![bi.val, 0, 0] S1x64x26.size (slab_inb bi))

/-- Entry `bi`'s row of the pooled buffer: the column sums of its 4096 pair rows after the first layer and the three
    hidden layers, of the block's entries `x0` and the weights `x1 … x9`. -/
def rowOf (x0 : Vec F S8x64x26 .f32) (x1 x2 : Vec F S26x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) (bi : Fin 8) : FVec F S1x256 .f32 :=
  k0_pay18 (k0_pay7 (k0_pay5 x8) x9 (k0_pay7 (k0_pay4 x6) x7 (k0_pay7 (k0_pay3 x4) x5
    (k0_pay12 (k0_pay1 x1) (k0_pay2 x2) x3 (slab x0 bi)))))

/-- The pooled buffer as the body's last layers load it: its 8 rows, each stored once, read back whole. -/
def pooledV (arg19 : Memref sig .tc .vmem S8x256 .f32) (x0 : Vec F S8x64x26 .f32) (x1 x2 : Vec F S26x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) : Vec F S8x256 .f32 :=
  arg19.view.readCov (View.tilePieces (s := S8x256) S1x256.size (fun i : Fin 8 => ![i.val, 0]) row_inb
      (fun i => rowOf x0 x1 x2 x3 x4 x5 x6 x7 x8 x9 i) 8 (Nat.le_refl 8))
    (Rect.unit ![0, 0] S8x256.size inb_S8x256_S8x256_0_0).toLoadRect

/-- Row `p` of the pooled buffer is entry `p`'s row: the eight stores go to eight different rows. -/
theorem pooledV_apply (arg19 : Memref sig .tc .vmem S8x256 .f32) (x0 : Vec F S8x64x26 .f32) (x1 x2 : Vec F S26x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) (p : Fin 8) (k : Fin 256) :
    pooledV arg19 x0 x1 x2 x3 x4 x5 x6 x7 x8 x9 (ix2 p k) = rowOf x0 x1 x2 x3 x4 x5 x6 x7 x8 x9 p (ix2 (0 : Fin 1) k) := by
  have hx : ∀ a : Fin 2, (((Rect.unit (s := S8x256) ![0, 0] S8x256.size inb_S8x256_S8x256_0_0).toLoadRect.idx (ix2 p k)) a).val
      = (fun i : Fin 8 => (![i.val, 0] : Fin 2 → ℕ)) p a + ((ix2 (0 : Fin 1) k : (⟨2, S1x256.size⟩ : Shape).Idx) a).val := fun a => by
    match a with
    | ⟨0, _⟩ => show 0 + 1 * p.val = p.val + 0; omega
    | ⟨1, _⟩ => show 0 + 1 * k.val = 0 + k.val; omega
  have hdis : ∀ i' : Fin 8, i' ≠ p →
      (((Rect.unit (s := S8x256) ![0, 0] S8x256.size inb_S8x256_S8x256_0_0).toLoadRect.idx (ix2 p k)) (0 : Fin 2)).val
          < (fun i : Fin 8 => (![i.val, 0] : Fin 2 → ℕ)) i' (0 : Fin 2)
        ∨ (fun i : Fin 8 => (![i.val, 0] : Fin 2 → ℕ)) i' (0 : Fin 2) + S1x256.size (0 : Fin 2)
          ≤ (((Rect.unit (s := S8x256) ![0, 0] S8x256.size inb_S8x256_S8x256_0_0).toLoadRect.idx (ix2 p k)) (0 : Fin 2)).val :=
    fun i' hi' => by
      have hne : i'.val ≠ p.val := fun h => hi' (Fin.ext h)
      show 0 + 1 * p.val < i'.val ∨ i'.val + 1 ≤ 0 + 1 * p.val
      omega
  exact View.read_tilePieces (Val := Elt F) arg19.view arg19.view.junk S1x256.size (fun i : Fin 8 => (![i.val, 0] : Fin 2 → ℕ))
    row_inb (fun i => rowOf x0 x1 x2 x3 x4 x5 x6 x7 x8 x9 i) 8 (Nat.le_refl 8)
    ((Rect.unit (s := S8x256) ![0, 0] S8x256.size inb_S8x256_S8x256_0_0).toLoadRect.idx (ix2 p k)) p p.isLt (ix2 (0 : Fin 1) k) hx 0 hdis

/-! ## The block -/

section Block

variable (c : Dev nD) (i : grid0.Coords) (arg1 : Memref sig .tc .vmem S8x64x26 .f32) (harg1 : arg1.IsWhole) (arg2 : Memref sig .tc .vmem S26x256 .f32) (harg2 : arg2.IsWhole) (arg3 : Memref sig .tc .vmem S26x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x256 .f32) (harg13 : arg13.IsWhole) (arg14 : Memref sig .tc .vmem S256 .f32) (harg14 : arg14.IsWhole) (arg15 : Memref sig .tc .vmem S256x32 .f32) (harg15 : arg15.IsWhole) (arg16 : Memref sig .tc .vmem S32 .f32) (harg16 : arg16.IsWhole) (arg17 : Memref sig .tc .vmem S8x32 .f32) (harg17 : arg17.IsWhole) (arg18 : Memref sig .tc .vmem S4096x256 .bf16) (harg18 : arg18.IsWhole) (arg19 : Memref sig .tc .vmem S8x256 .f32) (harg19 : arg19.IsWhole)
  (x0 : Vec F S8x64x26 .f32) (x1 : Vec F S26x256 .f32) (x2 : Vec F S26x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) (x10 : Vec F S256x256 .f32) (x11 : Vec F S256 .f32) (x12 : Vec F S256x256 .f32) (x13 : Vec F S256 .f32) (x14 : Vec F S256x32 .f32) (x15 : Vec F S32 .f32)

/-- What the body leaves in the output block: the last three layers of the pooled buffer. The body's stores to the
    4096 x 256 buffer each fill it whole, so each load of it reads the layer stored just before. -/
theorem block_eq :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15
      = k0_pay57 x10 x11 x12 x13 x14 x15 (pooledV arg19 x0 x1 x2 x3 x4 x5 x6 x7 x8 x9) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15)]
  unfold kernelRun0_A
  dsimp only
  rw [View.canon_unit_zero (S := S8x32) zeros2]
  unfold kernelRun0_A.sl.v497 kernelRun0_A.sl.HS1_8
  simp only [kernelRun0_A.sl.HS0_1, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_2, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_3, kernelRun0_A.sl.HS0_30, kernelRun0_A.sl.HS0_31, kernelRun0_A.sl.HS0_32, kernelRun0_A.sl.HS0_4, kernelRun0_A.sl.HS0_5, kernelRun0_A.sl.HS0_6, kernelRun0_A.sl.HS0_7, kernelRun0_A.sl.HS0_8, kernelRun0_A.sl.HS0_9, kernelRun0_A.sl.cst_136, kernelRun0_A.sl.cst_154, kernelRun0_A.sl.cst_77, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v106, kernelRun0_A.sl.v117, kernelRun0_A.sl.v128, kernelRun0_A.sl.v154, kernelRun0_A.sl.v165, kernelRun0_A.sl.v176, kernelRun0_A.sl.v187, kernelRun0_A.sl.v213, kernelRun0_A.sl.v224, kernelRun0_A.sl.v235, kernelRun0_A.sl.v246, kernelRun0_A.sl.v272, kernelRun0_A.sl.v283, kernelRun0_A.sl.v294, kernelRun0_A.sl.v305, kernelRun0_A.sl.v331, kernelRun0_A.sl.v342, kernelRun0_A.sl.v353, kernelRun0_A.sl.v36, kernelRun0_A.sl.v364, kernelRun0_A.sl.v390, kernelRun0_A.sl.v401, kernelRun0_A.sl.v412, kernelRun0_A.sl.v423, kernelRun0_A.sl.v449, kernelRun0_A.sl.v460, kernelRun0_A.sl.v47, kernelRun0_A.sl.v471, kernelRun0_A.sl.v482, kernelRun0_A.sl.v58, kernelRun0_A.sl.v69, kernelRun0_A.sl.v95, View.readCov_cons_toLoadRect, View.readAt_eq_ld, Memref.IsWhole.read_unread,
    View.ld_unit_zero (S := S256x256) zeros2, View.ld_unit_zero (S := S256x32) zeros2, View.ld_unit_zero (S := S26x256) zeros2,
    View.ld_unit_zero (S := S256) zeros1, View.ld_unit_zero (S := S32) zeros1]
  simp only [hidden8, hidden9, hidden13, hidden17, hidden21, hidden22, hidden29, hidden30, hidden35, hidden36, hidden42, hidden43, hidden46, hidden49, hidden53, hidden54, hidden55, hidden_cut16, hidden_cut24, hidden_cut28, hidden_cut48, hidden_cut37,
    hidden_cut41, first26, first39, first45, first_f32, first_cut20, first_cut34, first_cut52,
    pool25, pool31, pool38, pool44, pool50, pool56, pool_cut11]
  rfl

end Block

end Cert.KernelIdeal.Block

end
-- ==== Proof.Net.lean ====
/-
  The network both programs compute, on the extended reals, entry by entry.

  An input holds, for each of `B` batch entries, 64 feature rows of 26 numbers. Every ordered pair `(i, j)` of rows gives one
  row of 256 numbers: the first layer adds row `i` times rows 26–51 of the first weight matrix, row `j` times its
  rows 0–25 and a bias, and rectifies; three rectified dense layers follow. The 4096 pair rows of a batch entry are
  summed column by column, and two rectified dense layers and one plain dense layer map that sum to 32 numbers.
-/
import Idealize.ShloMosaic.PureOps.Ideal.Laws
import Idealize.ShloMosaic.Lib.ValueIdx

noncomputable section

namespace Cert.PairNet

open Idealize.ShloMosaic Idealize.ShloMosaic.ValueIdx
open scoped BigOperators

/-- The rectifier: the larger of a value and the value of the f32 zero word. -/
def relu (z : EReal) : EReal := max z (Ideal.ofBits .f32 0x00000000#32)

/-- A row times a `[K, N]` matrix plus a bias, at column `q`. -/
def affine {K N : ℕ} (W : (⟨2, ![K, N]⟩ : Shape).Idx → EReal) (b : (⟨1, ![N]⟩ : Shape).Idx → EReal) (v : Fin K → EReal)
    (q : Fin N) : EReal :=
  (∑ k : Fin K, v k * W (ix2 k q)) + b (ix1 q)

/-- A rectified dense layer on a row. -/
def layer {K N : ℕ} (W : (⟨2, ![K, N]⟩ : Shape).Idx → EReal) (b : (⟨1, ![N]⟩ : Shape).Idx → EReal) (v : Fin K → EReal) :
    Fin N → EReal := fun q => relu (affine W b v q)

/-- The weights: the first matrix in its two halves (`Wa` its rows 0–25, `Wb` its rows 26–51), then matrices and biases. -/
structure Weights where
  Wa : (⟨2, ![26, 256]⟩ : Shape).Idx → EReal
  Wb : (⟨2, ![26, 256]⟩ : Shape).Idx → EReal
  b0 : (⟨1, ![256]⟩ : Shape).Idx → EReal
  W1 : (⟨2, ![256, 256]⟩ : Shape).Idx → EReal
  b1 : (⟨1, ![256]⟩ : Shape).Idx → EReal
  W2 : (⟨2, ![256, 256]⟩ : Shape).Idx → EReal
  b2 : (⟨1, ![256]⟩ : Shape).Idx → EReal
  W3 : (⟨2, ![256, 256]⟩ : Shape).Idx → EReal
  b3 : (⟨1, ![256]⟩ : Shape).Idx → EReal
  W4 : (⟨2, ![256, 256]⟩ : Shape).Idx → EReal
  b4 : (⟨1, ![256]⟩ : Shape).Idx → EReal
  W5 : (⟨2, ![256, 256]⟩ : Shape).Idx → EReal
  b5 : (⟨1, ![256]⟩ : Shape).Idx → EReal
  W6 : (⟨2, ![256, 32]⟩ : Shape).Idx → EReal
  b6 : (⟨1, ![32]⟩ : Shape).Idx → EReal

variable {B : ℕ}

/-- The first layer of the pair `(i, j)` of batch entry `n`: row `i` against `Wb` (rows 26–51), row `j` against `Wa` (rows 0–25). -/
def first (w : Weights) (x : (⟨3, ![B, 64, 26]⟩ : Shape).Idx → EReal) (n : Fin B) (i j : Fin 64) : Fin 256 → EReal := fun h =>
  relu (((∑ c : Fin 26, x (ix3 n i c) * w.Wb (ix2 c h)) + (∑ c : Fin 26, x (ix3 n j c) * w.Wa (ix2 c h))) + w.b0 (ix1 h))

/-- The pair's row after the three hidden layers. -/
def pairRow (w : Weights) (x : (⟨3, ![B, 64, 26]⟩ : Shape).Idx → EReal) (n : Fin B) (i j : Fin 64) : Fin 256 → EReal :=
  layer w.W3 w.b3 (layer w.W2 w.b2 (layer w.W1 w.b1 (first w x n i j)))

/-- The sum of a batch entry's 4096 pair rows, column by column. -/
def pooled (w : Weights) (x : (⟨3, ![B, 64, 26]⟩ : Shape).Idx → EReal) (n : Fin B) : Fin 256 → EReal := fun q =>
  ∑ i : Fin 64, ∑ j : Fin 64, pairRow w x n i j q

/-- The network's output for batch entry `n`, at column `q`. -/
def net (w : Weights) (x : (⟨3, ![B, 64, 26]⟩ : Shape).Idx → EReal) (n : Fin B) (q : Fin 32) : EReal :=
  affine w.W6 w.b6 (layer w.W5 w.b5 (layer w.W4 w.b4 (pooled w x n))) q

/-- The network's output as a `[B, 32]` array. -/
def netArr (w : Weights) (x : (⟨3, ![B, 64, 26]⟩ : Shape).Idx → EReal) : (⟨2, ![B, 32]⟩ : Shape).Idx → EReal := fun y =>
  net w x (y 0) (y 1)

theorem netArr_ix2 (w : Weights) (x : (⟨3, ![B, 64, 26]⟩ : Shape).Idx → EReal) (n : Fin B) (q : Fin 32) :
    netArr w x (ix2 n q) = net w x n q := rfl

/-! ## The weights from the argument arrays -/

/-- Rows 0–25 of a `[52, 256]` matrix. -/
def upperRows (W0 : (⟨2, ![52, 256]⟩ : Shape).Idx → EReal) : (⟨2, ![26, 256]⟩ : Shape).Idx → EReal := fun y =>
  W0 (ix2 (Fin.castAdd 26 (show Fin 26 from y 0)) (y 1))

/-- Rows 26–51 of a `[52, 256]` matrix. -/
def lowerRows (W0 : (⟨2, ![52, 256]⟩ : Shape).Idx → EReal) : (⟨2, ![26, 256]⟩ : Shape).Idx → EReal := fun y =>
  W0 (ix2 (Fin.natAdd 26 (show Fin 26 from y 0)) (y 1))

theorem upperRows_ix2 (W0 : (⟨2, ![52, 256]⟩ : Shape).Idx → EReal) (c : Fin 26) (h : Fin 256) :
    upperRows W0 (ix2 c h) = W0 (ix2 (Fin.castAdd 26 c) h) := rfl

theorem lowerRows_ix2 (W0 : (⟨2, ![52, 256]⟩ : Shape).Idx → EReal) (c : Fin 26) (h : Fin 256) :
    lowerRows W0 (ix2 c h) = W0 (ix2 (Fin.natAdd 26 c) h) := rfl

/-- The weights as the two programs receive them: the first matrix whole, then matrices and biases in turn. -/
def Weights.ofArrays (W0 : (⟨2, ![52, 256]⟩ : Shape).Idx → EReal) (b0 : (⟨1, ![256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 256]⟩ : Shape).Idx → EReal) (b4 : (⟨1, ![256]⟩ : Shape).Idx → EReal)
    (W5 : (⟨2, ![256, 256]⟩ : Shape).Idx → EReal) (b5 : (⟨1, ![256]⟩ : Shape).Idx → EReal)
    (W6 : (⟨2, ![256, 32]⟩ : Shape).Idx → EReal) (b6 : (⟨1, ![32]⟩ : Shape).Idx → EReal) : Weights :=
  ⟨upperRows W0, lowerRows W0, b0, W1, b1, W2, b2, W3, b3, W4, b4, W5, b5, W6, b6⟩

/-- A sum over 52 entries is the sum over the first 26 plus the sum over the last 26. -/
theorem sum52 (f : Fin 52 → EReal) :
    ∑ c : Fin 52, f c = (∑ c : Fin 26, f (Fin.castAdd 26 c)) + ∑ c : Fin 26, f (Fin.natAdd 26 c) :=
  Fin.sum_univ_add (M := EReal) (a := 26) (b := 26) f

end Cert.PairNet

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDense.lean ====
/-
  Dense layers read at coordinates, at the extended reals.

  A row-major `[M, K]` array times a `[K, N]` matrix into a zero accumulator, plus a length-`N` bias laid out as one row
  and repeated over the `M` rows, is at `(p, q)` the sum over `k` of `l (p, k) · W (k, q)`, plus `b q`. A length-`c`
  vector laid out as `[1, 1, c]` and repeated over two leading axes reads, at `(p, q, k)`, the vector at `k`.
-/
import proofs.«102810_j10711648436521_2_alg».proof.Proof.LibPlainDot
import Idealize.ShloMosaic.Lib.ValueLayout
import Idealize.ShloMosaic.Lib.Pipeline.Value

noncomputable section

namespace Cert.LibDense

open Idealize.ShloMosaic Idealize.ShloMosaic.ValueIdx
open scoped BigOperators

variable {α : Type}

/-- A length-`c` vector cast to `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- A `[1, 1, c]` array broadcast to `[a, b, c]` reads, at `(p, q, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => show 0 = if (1 : ℕ) = 1 then 0 else p.val; rw [if_pos rfl]
  | ⟨1, _⟩ => show 0 = if (1 : ℕ) = 1 then 0 else q.val; rw [if_pos rfl]
  | ⟨2, _⟩ =>
    show k.val = if c = 1 then 0 else k.val
    split
    · have := k.isLt; omega
    · rfl

variable {M K N : ℕ} (d : DotDims ⟨2, ![M, K]⟩ ⟨2, ![K, N]⟩ ⟨2, ![M, N]⟩)

/-- A dense layer before its activation, at `(p, q)`. -/
theorem dense_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (FloatOps.matmul d prec l W (constant ⟨2, ![M, N]⟩ .f32 0x00000000#32))
        (broadcastTo ⟨2, ![M, N]⟩ (shapeCast ⟨2, ![1, N]⟩ b hc) hb) (ix2 p q)
      = (∑ k : Fin K, l (ix2 p k) * W (ix2 k q)) + b (ix1 q) := by
  rw [addf_apply, Cert.LibPlainDot.matmul_plain_apply d hlc hrc hlb hrb hln hrn, broadcastTo_1b_ab_apply, shapeCast_a_1a_apply]

end Cert.LibDense

end
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.KernelRows.lean ====
/-
  The kernel's pieces read at an index, at the extended reals: a hidden layer and the first layer on one pair row, the
  pooling of a column, the last three layers on one row of the pooled buffer; and, from these, one entry's pooled row
  and one grid point's output block as the network of Net.lean on the block's 8 entries.
-/
import proofs.«102810_j10711648436521_2_alg».proof.Proof.KernelBlock
import proofs.«102810_j10711648436521_2_alg».proof.Proof.Net
import proofs.«102810_j10711648436521_2_alg».proof.Proof.LibDense
import proofs.«102810_j10711648436521_2_alg».proof.Proof.LibMid
import proofs.«102810_j10711648436521_2_alg».proof.Proof.LibMerge
import proofs.«102810_j10711648436521_2_alg».proof.Proof.LibCols
import proofs.«102810_j10711648436521_2_alg».proof.Proof.LibBlocks
import Idealize.ShloMosaic.Lib.ValueLayout

set_option maxRecDepth 16384

noncomputable section

namespace Cert.KernelIdeal.Rows

open Cert.KernelIdeal Cert.KernelIdeal.Gen Cert.KernelIdeal.Block Cert.PairNet
open Idealize.ShloMosaic Idealize.ShloMosaic.ValueIdx
open scoped BigOperators

/-! ## The weights: a change of float format changes nothing -/

theorem wa_eq (x : Vec Ideal S26x256 .f32) : k0_pay1 x = x := by
  unfold k0_pay1; dsimp only; rw [shapeCast_self]; rfl
theorem wb_eq (x : Vec Ideal S26x256 .f32) : k0_pay2 x = x := by
  unfold k0_pay2; dsimp only; rw [shapeCast_self]; rfl
theorem w1_eq (x : Vec Ideal S256x256 .f32) : k0_pay3 x = x := rfl
theorem w2_eq (x : Vec Ideal S256x256 .f32) : k0_pay4 x = x := rfl
theorem w3_eq (x : Vec Ideal S256x256 .f32) : k0_pay5 x = x := rfl

/-! ## A hidden layer on one pair row -/

/-- Row `r` of a hidden layer's result is the rectified dense layer of row `r` of its operand. -/
theorem hidden_apply (W : FVec Ideal S256x256 .bf16) (b : Vec Ideal S256 .f32) (h : Vec Ideal S4096x256 .bf16)
    (r : Fin 4096) (q : Fin 256) : k0_pay7 W b h (ix2 r q) = layer W b (fun k => h (ix2 r k)) q := by
  unfold k0_pay7
  rw [shapeCast_self]
  exact congrArg (fun z : EReal => max z (Ideal.ofBits .f32 0x00000000#32))
    (Cert.LibDense.dense_apply dot_S4096x256_S256x256_S4096x256_1_0_0_1_n_n rfl rfl rfl rfl rfl rfl none h W b
      shapeCasts_S256_S1x256 broadcasts_S1x256_S4096x256 r q)

/-! ## The pooling -/

/-- The pooled row at column `q` is the sum of the column's 4096 entries. -/
theorem pool_apply (h : Vec Ideal S4096x256 .bf16) (u : Fin 1) (q : Fin 256) :
    k0_pay18 h (ix2 u q) = ∑ r : Fin 4096, h (ix2 r q) := by
  unfold k0_pay18
  refine (shapeCast_a_1a_apply _ _ u q).trans ?_
  exact colSum_apply (extf .f32 h bitsLt_bf16_f32) _ reduces_S4096x256_S256 _ _ q

/-! ## The first layer on one pair row -/

/-- Pair row `r = 64 i + j` of the first layer: feature row `i` against `wb`, feature row `j` against `wa`, the bias, rectified. -/
theorem first_apply (wa wb : FVec Ideal S26x256 .bf16) (b0 : Vec Ideal S256 .f32) (s : Vec Ideal S1x64x26 .f32)
    (i j : Fin 64) (h : Fin 256) (r : Fin 4096) (hr : r.val = i.val * 64 + j.val) :
    k0_pay12 wa wb b0 s (ix2 r h)
      = relu (((∑ c : Fin 26, s (ix3 (0 : Fin 1) i c) * wb (ix2 c h)) + (∑ c : Fin 26, s (ix3 (0 : Fin 1) j c) * wa (ix2 c h)))
          + b0 (ix1 h)) := by
  unfold k0_pay12
  rw [shapeCast_self, truncf_apply, shapeCast_nab_mb_apply _ _ i j h r hr, maximumf_apply, addf_apply, addf_apply,
    Cert.LibMid.broadcastTo_a1b_anb_apply, Cert.LibMid.broadcastTo_1nb_anb_apply, Cert.LibDense.broadcastTo_11c_abc_apply,
    Cert.LibMid.shapeCast_ab_a1b_apply, shapeCast_ab_1ab_apply, Cert.LibDense.shapeCast_c_11c_apply, broadcast_apply]
  simp only [matmul]
  rw [Cert.LibPlainDot.matmul_plain_apply dot_S64x26_S26x256_S64x256_1_0_0_1_n_n rfl rfl rfl rfl rfl rfl,
    Cert.LibPlainDot.matmul_plain_apply dot_S64x26_S26x256_S64x256_1_0_0_1_n_n rfl rfl rfl rfl rfl rfl]
  simp only [truncf_apply, shapeCast_1ab_ab_apply]
  rfl

/-! ## The last three layers on one row of the pooled buffer -/

/-- A rectified dense layer on the 8-row buffer, at `(p, k)`. -/
theorem tail_layer {φ : FTy} (W : Vec Ideal S256x256 .f32) (b : Vec Ideal S256 .f32) (A : FVec Ideal S8x256 φ) (p : Fin 8) (k : Fin 256) :
    (maximumf (addf (matmul dot_S8x256_S256x256_S8x256_1_0_0_1_n_n none A (truncf .bf16 W bitsLt_bf16_f32)
        (constant S8x256 .f32 0x00000000#32)) (broadcastTo S8x256 (shapeCast S1x256 b shapeCasts_S256_S1x256) broadcasts_S1x256_S8x256))
      (broadcast S8x256 (Scalar.ofBits .f32 0x00000000#32)) : FVec Ideal S8x256 .f32) (ix2 p k)
      = layer W b (fun k' => A (ix2 p k')) k :=
  congrArg (fun z : EReal => max z (Ideal.ofBits .f32 0x00000000#32))
    (Cert.LibDense.dense_apply dot_S8x256_S256x256_S8x256_1_0_0_1_n_n rfl rfl rfl rfl rfl rfl none A
      (truncf .bf16 W bitsLt_bf16_f32) b shapeCasts_S256_S1x256 broadcasts_S1x256_S8x256 p k)

/-- Row `p` of the output block: two rectified dense layers and one dense layer of row `p` of the pooled buffer. -/
theorem tail_apply (W4 : Vec Ideal S256x256 .f32) (b4 : Vec Ideal S256 .f32) (W5 : Vec Ideal S256x256 .f32) (b5 : Vec Ideal S256 .f32)
    (W6 : Vec Ideal S256x32 .f32) (b6 : Vec Ideal S32 .f32) (A : Vec Ideal S8x256 .f32) (p : Fin 8) (q : Fin 32) :
    k0_pay57 W4 b4 W5 b5 W6 b6 A (ix2 p q) = affine W6 b6 (layer W5 b5 (layer W4 b4 (fun k => A (ix2 p k)))) q := by
  unfold k0_pay57
  rw [Cert.LibDense.dense_apply dot_S8x256_S256x32_S8x32_1_0_0_1_n_n rfl rfl rfl rfl rfl rfl]
  simp only [tail_layer, truncf_apply]
  rfl

/-! ## One entry's pooled row, and the block -/

/-- Entry `bi`'s feature row `i`, cut out of the block. -/
theorem slab_apply (x0 : Vec Ideal S8x64x26 .f32) (bi : Fin 8) (i : Fin 64) (c : Fin 26) :
    slab x0 bi (ix3 (0 : Fin 1) i c) = x0 (ix3 bi i c) := by
  show x0 ((Rect.unit (s := S8x64x26) ![bi.val, 0, 0] S1x64x26.size (slab_inb bi)).emb (ix3 (0 : Fin 1) i c)) = x0 (ix3 bi i c)
  refine congrArg x0 (funext fun a => Fin.ext ?_)
  match a with
  | ⟨0, _⟩ => show bi.val + 1 * 0 = bi.val; omega
  | ⟨1, _⟩ => show 0 + 1 * i.val = i.val; omega
  | ⟨2, _⟩ => show 0 + 1 * c.val = c.val; omega

/-- Entry `bi`'s row of the pooled buffer is the network's pooled row of that entry: the 4096 rows of the buffer are
    the pairs `(i, j)` at row `64 i + j`. -/
theorem rowOf_apply (x0 : Vec Ideal S8x64x26 .f32) (x1 x2 : Vec Ideal S26x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256x32 .f32) (x15 : Vec Ideal S32 .f32) (bi : Fin 8) (u : Fin 1) (q : Fin 256) :
    rowOf x0 x1 x2 x3 x4 x5 x6 x7 x8 x9 bi (ix2 u q) = pooled (⟨x1, x2, x3, x4, x5, x6, x7, x8, x9, x10, x11, x12, x13, x14, x15⟩ : Weights) x0 bi q := by
  unfold rowOf
  rw [pool_apply, Cert.LibBlocks.sum_entries (A := 64) (B := 64)]
  show _ = ∑ i : Fin 64, ∑ j : Fin 64, pairRow (⟨x1, x2, x3, x4, x5, x6, x7, x8, x9, x10, x11, x12, x13, x14, x15⟩ : Weights) x0 bi i j q
  refine Finset.sum_congr rfl fun i _ => Finset.sum_congr rfl fun j _ => ?_
  rw [hidden_apply]
  simp only [hidden_apply, first_apply _ _ _ _ i j _ (Cert.LibBlocks.entry i j) rfl, wa_eq, wb_eq, w1_eq, w2_eq, w3_eq,
    slab_apply]
  rfl

/-- Row `p` of a grid point's output block is the network's output for the block's entry `p`. -/
theorem block_apply (arg19 : Memref sig .tc .vmem S8x256 .f32) (x0 : Vec Ideal S8x64x26 .f32) (x1 x2 : Vec Ideal S26x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256x32 .f32) (x15 : Vec Ideal S32 .f32) (p : Fin 8) (q : Fin 32) :
    k0_pay57 x10 x11 x12 x13 x14 x15 (pooledV arg19 x0 x1 x2 x3 x4 x5 x6 x7 x8 x9) (ix2 p q) = net (⟨x1, x2, x3, x4, x5, x6, x7, x8, x9, x10, x11, x12, x13, x14, x15⟩ : Weights) x0 p q := by
  rw [tail_apply]
  simp only [pooledV_apply, rowOf_apply x0 x1 x2 x3 x4 x5 x6 x7 x8 x9 x10 x11 x12 x13 x14 x15]
  rfl

end Cert.KernelIdeal.Rows

end
-- ==== Proof.KernelValue.lean ====
/-
  From blocks to the array. Grid point `t` stages entries `8 t … 8 t + 7` of the input and the whole of every weight
  array (the first matrix as its two halves, which the host cut before the launch), and writes rows `8 t … 8 t + 7`
  of the output. So the output array ends holding the network of Net.lean of the argument arrays, row by row.
-/
import proofs.«102810_j10711648436521_2_alg».proof.Proof.KernelRows
import proofs.«102810_j10711648436521_2_alg».proof.Proof.Gen.KernelIdeal.Value
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Block Cert.KernelIdeal.Rows Cert.PairNet
open Idealize.ShloMosaic Idealize.ShloMosaic.TcCoe Idealize.ShloMosaic.ValueIdx Idealize.SL.Sem
open Idealize.ShloMosaic.Pipeline (Dat)
open scoped BigOperators

/-- The network's output for an entry depends on the input only through that entry's feature rows. -/
theorem net_congr {B B' : ℕ} (w : Weights) (x : (⟨3, ![B, 64, 26]⟩ : Shape).Idx → EReal)
    (x' : (⟨3, ![B', 64, 26]⟩ : Shape).Idx → EReal) (n : Fin B) (n' : Fin B')
    (h : ∀ (i : Fin 64) (c : Fin 26), x (ix3 n i c) = x' (ix3 n' i c)) (q : Fin 32) : net w x n q = net w x' n' q := by
  unfold net pooled pairRow first
  simp only [h]

/-- A grid point's output block is the network on the block's 8 entries. -/
theorem block_net (arg19 : Memref sig .tc .vmem S8x256 .f32) (x0 : Vec Ideal S8x64x26 .f32) (x1 x2 : Vec Ideal S26x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (x10 : Vec Ideal S256x256 .f32) (x11 : Vec Ideal S256 .f32) (x12 : Vec Ideal S256x256 .f32) (x13 : Vec Ideal S256 .f32) (x14 : Vec Ideal S256x32 .f32) (x15 : Vec Ideal S32 .f32) :
    k0_pay57 x10 x11 x12 x13 x14 x15 (pooledV arg19 x0 x1 x2 x3 x4 x5 x6 x7 x8 x9) = netArr (⟨x1, x2, x3, x4, x5, x6, x7, x8, x9, x10, x11, x12, x13, x14, x15⟩ : Weights) x0 := by
  funext y
  obtain ⟨p, q, rfl⟩ : ∃ (p : Fin 8) (q : Fin 32), y = ix2 p q := ⟨y 0, y 1, eq_ix2 y⟩
  rw [block_apply]
  rfl

variable (m : (ℓ : Loc nD τ sig) → Buf (Elt Ideal) ℓ) (ρ : Dev nD → PrngReg)

/-- The windows' block indices, decided over the 8 grid points: the input's and the output's first axis moves with
    the point, every weight window stays at its array's origin. -/
theorem idx_facts : ∀ t : Fin cfg0.N, win0_0.index t (0 : Fin 3) = t.val
    ∧ win0_0.index t (1 : Fin 3) = 0
    ∧ win0_0.index t (2 : Fin 3) = 0
    ∧ win0_16.index t (0 : Fin 2) = t.val
    ∧ win0_16.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 1) = 0 :=
  (by decide +kernel : ∀ t : Fin grid0.N, _)

/-- Window 1 holds its whole array at every point. -/
theorem block1 (c : Dev nD) (t : Fin cfg0.N) : iblk m c 1 t = V m c main_v0 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_v0 (((cfg0.win 1).blk t).view.emb y) = V m c main_v0 y
  refine congrArg (V m c main_v0) (funext fun a => Fin.ext ?_)
  match a with
  | ⟨0, _⟩ => show win0_1.index t (0 : Fin 2) * 26 + 1 * (y 0).val = (y 0).val; rw [f1_0]; omega
  | ⟨1, _⟩ => show win0_1.index t (1 : Fin 2) * 256 + 1 * (y 1).val = (y 1).val; rw [f1_1]; omega

/-- Window 2 holds its whole array at every point. -/
theorem block2 (c : Dev nD) (t : Fin cfg0.N) : iblk m c 2 t = V m c main_v1 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_v1 (((cfg0.win 2).blk t).view.emb y) = V m c main_v1 y
  refine congrArg (V m c main_v1) (funext fun a => Fin.ext ?_)
  match a with
  | ⟨0, _⟩ => show win0_2.index t (0 : Fin 2) * 26 + 1 * (y 0).val = (y 0).val; rw [f2_0]; omega
  | ⟨1, _⟩ => show win0_2.index t (1 : Fin 2) * 256 + 1 * (y 1).val = (y 1).val; rw [f2_1]; omega

/-- Window 3 holds its whole array at every point. -/
theorem block3 (c : Dev nD) (t : Fin cfg0.N) : iblk m c 3 t = V m c main_arg2 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg2 (((cfg0.win 3).blk t).view.emb y) = V m c main_arg2 y
  refine congrArg (V m c main_arg2) (funext fun a => Fin.ext ?_)
  match a with
  | ⟨0, _⟩ => show win0_3.index t (0 : Fin 1) * 256 + 1 * (y 0).val = (y 0).val; rw [f3_0]; omega

/-- Window 4 holds its whole array at every point. -/
theorem block4 (c : Dev nD) (t : Fin cfg0.N) : iblk m c 4 t = V m c main_arg3 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg3 (((cfg0.win 4).blk t).view.emb y) = V m c main_arg3 y
  refine congrArg (V m c main_arg3) (funext fun a => Fin.ext ?_)
  match a with
  | ⟨0, _⟩ => show win0_4.index t (0 : Fin 2) * 256 + 1 * (y 0).val = (y 0).val; rw [f4_0]; omega
  | ⟨1, _⟩ => show win0_4.index t (1 : Fin 2) * 256 + 1 * (y 1).val = (y 1).val; rw [f4_1]; omega

/-- Window 5 holds its whole array at every point. -/
theorem block5 (c : Dev nD) (t : Fin cfg0.N) : iblk m c 5 t = V m c main_arg4 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg4 (((cfg0.win 5).blk t).view.emb y) = V m c main_arg4 y
  refine congrArg (V m c main_arg4) (funext fun a => Fin.ext ?_)
  match a with
  | ⟨0, _⟩ => show win0_5.index t (0 : Fin 1) * 256 + 1 * (y 0).val = (y 0).val; rw [f5_0]; omega

/-- Window 6 holds its whole array at every point. -/
theorem block6 (c : Dev nD) (t : Fin cfg0.N) : iblk m c 6 t = V m c main_arg5 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg5 (((cfg0.win 6).blk t).view.emb y) = V m c main_arg5 y
  refine congrArg (V m c main_arg5) (funext fun a => Fin.ext ?_)
  match a with
  | ⟨0, _⟩ => show win0_6.index t (0 : Fin 2) * 256 + 1 * (y 0).val = (y 0).val; rw [f6_0]; omega
  | ⟨1, _⟩ => show win0_6.index t (1 : Fin 2) * 256 + 1 * (y 1).val = (y 1).val; rw [f6_1]; omega

/-- Window 7 holds its whole array at every point. -/
theorem block7 (c : Dev nD) (t : Fin cfg0.N) : iblk m c 7 t = V m c main_arg6 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg6 (((cfg0.win 7).blk t).view.emb y) = V m c main_arg6 y
  refine congrArg (V m c main_arg6) (funext fun a => Fin.ext ?_)
  match a with
  | ⟨0, _⟩ => show win0_7.index t (0 : Fin 1) * 256 + 1 * (y 0).val = (y 0).val; rw [f7_0]; omega

/-- Window 8 holds its whole array at every point. -/
theorem block8 (c : Dev nD) (t : Fin cfg0.N) : iblk m c 8 t = V m c main_arg7 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg7 (((cfg0.win 8).blk t).view.emb y) = V m c main_arg7 y
  refine congrArg (V m c main_arg7) (funext fun a => Fin.ext ?_)
  match a with
  | ⟨0, _⟩ => show win0_8.index t (0 : Fin 2) * 256 + 1 * (y 0).val = (y 0).val; rw [f8_0]; omega
  | ⟨1, _⟩ => show win0_8.index t (1 : Fin 2) * 256 + 1 * (y 1).val = (y 1).val; rw [f8_1]; omega

/-- Window 9 holds its whole array at every point. -/
theorem block9 (c : Dev nD) (t : Fin cfg0.N) : iblk m c 9 t = V m c main_arg8 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg8 (((cfg0.win 9).blk t).view.emb y) = V m c main_arg8 y
  refine congrArg (V m c main_arg8) (funext fun a => Fin.ext ?_)
  match a with
  | ⟨0, _⟩ => show win0_9.index t (0 : Fin 1) * 256 + 1 * (y 0).val = (y 0).val; rw [f9_0]; omega

/-- Window 10 holds its whole array at every point. -/
theorem block10 (c : Dev nD) (t : Fin cfg0.N) : iblk m c 10 t = V m c main_arg9 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg9 (((cfg0.win 10).blk t).view.emb y) = V m c main_arg9 y
  refine congrArg (V m c main_arg9) (funext fun a => Fin.ext ?_)
  match a with
  | ⟨0, _⟩ => show win0_10.index t (0 : Fin 2) * 256 + 1 * (y 0).val = (y 0).val; rw [f10_0]; omega
  | ⟨1, _⟩ => show win0_10.index t (1 : Fin 2) * 256 + 1 * (y 1).val = (y 1).val; rw [f10_1]; omega

/-- Window 11 holds its whole array at every point. -/
theorem block11 (c : Dev nD) (t : Fin cfg0.N) : iblk m c 11 t = V m c main_arg10 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg10 (((cfg0.win 11).blk t).view.emb y) = V m c main_arg10 y
  refine congrArg (V m c main_arg10) (funext fun a => Fin.ext ?_)
  match a with
  | ⟨0, _⟩ => show win0_11.index t (0 : Fin 1) * 256 + 1 * (y 0).val = (y 0).val; rw [f11_0]; omega

/-- Window 12 holds its whole array at every point. -/
theorem block12 (c : Dev nD) (t : Fin cfg0.N) : iblk m c 12 t = V m c main_arg11 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg11 (((cfg0.win 12).blk t).view.emb y) = V m c main_arg11 y
  refine congrArg (V m c main_arg11) (funext fun a => Fin.ext ?_)
  match a with
  | ⟨0, _⟩ => show win0_12.index t (0 : Fin 2) * 256 + 1 * (y 0).val = (y 0).val; rw [f12_0]; omega
  | ⟨1, _⟩ => show win0_12.index t (1 : Fin 2) * 256 + 1 * (y 1).val = (y 1).val; rw [f12_1]; omega

/-- Window 13 holds its whole array at every point. -/
theorem block13 (c : Dev nD) (t : Fin cfg0.N) : iblk m c 13 t = V m c main_arg12 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg12 (((cfg0.win 13).blk t).view.emb y) = V m c main_arg12 y
  refine congrArg (V m c main_arg12) (funext fun a => Fin.ext ?_)
  match a with
  | ⟨0, _⟩ => show win0_13.index t (0 : Fin 1) * 256 + 1 * (y 0).val = (y 0).val; rw [f13_0]; omega

/-- Window 14 holds its whole array at every point. -/
theorem block14 (c : Dev nD) (t : Fin cfg0.N) : iblk m c 14 t = V m c main_arg13 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg13 (((cfg0.win 14).blk t).view.emb y) = V m c main_arg13 y
  refine congrArg (V m c main_arg13) (funext fun a => Fin.ext ?_)
  match a with
  | ⟨0, _⟩ => show win0_14.index t (0 : Fin 2) * 256 + 1 * (y 0).val = (y 0).val; rw [f14_0]; omega
  | ⟨1, _⟩ => show win0_14.index t (1 : Fin 2) * 32 + 1 * (y 1).val = (y 1).val; rw [f14_1]; omega

/-- Window 15 holds its whole array at every point. -/
theorem block15 (c : Dev nD) (t : Fin cfg0.N) : iblk m c 15 t = V m c main_arg14 := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  unfold iblk
  funext y
  show V m c main_arg14 (((cfg0.win 15).blk t).view.emb y) = V m c main_arg14 y
  refine congrArg (V m c main_arg14) (funext fun a => Fin.ext ?_)
  match a with
  | ⟨0, _⟩ => show win0_15.index t (0 : Fin 1) * 32 + 1 * (y 0).val = (y 0).val; rw [f15_0]; omega

/-! ## The host's two cuts of the first matrix -/

/-- Window 1's array: rows 0–25 of the first weight matrix. -/
theorem V_main_v0 (c : Dev nD) : V m c main_v0 = upperRows (m ((c : Thread nD τ).loc main_arg1)) := by
  have e : (V m c main_v0 : S26x256.Idx → EReal)
      = extractStridedSlice S26x256 ![0, 0] (m ((c : Thread nD τ).loc main_arg1)) slices_S52x256_S26x256_0_0 := by
    dsimp only [Gen.V, Gen.hostOps0]; after_results
  rw [e]
  funext y
  obtain ⟨r, h, rfl⟩ : ∃ (r : Fin 26) (h : Fin 256), y = ix2 r h := ⟨y 0, y 1, eq_ix2 y⟩
  exact slice2_axis0_apply 0 _ _ r h (Fin.castAdd 26 r) (by show r.val = 0 + r.val; omega)

/-- Window 2's array: rows 26–51 of the first weight matrix. -/
theorem V_main_v1 (c : Dev nD) : V m c main_v1 = lowerRows (m ((c : Thread nD τ).loc main_arg1)) := by
  have e : (V m c main_v1 : S26x256.Idx → EReal)
      = extractStridedSlice S26x256 ![26, 0] (m ((c : Thread nD τ).loc main_arg1)) slices_S52x256_S26x256_26_0 := by
    dsimp only [Gen.V, Gen.hostOps0]; after_results
  rw [e]
  funext y
  obtain ⟨r, h, rfl⟩ : ∃ (r : Fin 26) (h : Fin 256), y = ix2 r h := ⟨y 0, y 1, eq_ix2 y⟩
  exact slice2_axis0_apply 26 _ _ r h (Fin.natAdd 26 r) (by show 26 + r.val = 26 + r.val; rfl)

/-- The weights every grid point's body reads are the argument arrays'. -/
theorem weights_eq (c : Dev nD) (t : Fin cfg0.N) : (⟨iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩ : Weights) = (Weights.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [block1, block2, block3, block4, block5, block6, block7, block8, block9, block10, block11, block12, block13, block14, block15, V_main_v0, V_main_v1,
    V_main_arg2, V_main_arg3, V_main_arg4, V_main_arg5, V_main_arg6, V_main_arg7, V_main_arg8, V_main_arg9, V_main_arg10, V_main_arg11, V_main_arg12, V_main_arg13, V_main_arg14]
  rfl

/-! ## The output array -/

/-- What the output array ends holding: the network of the argument arrays. -/
def result (c : Dev nD) : S64x32.Idx → EReal := netArr (Weights.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg0))

/-- What point `t` writes back is rows `8 t … 8 t + 7` of `result`. -/
theorem flushed_eq (c : Dev nD) (t : Fin cfg0.N) (_hf : (cfg0.win 16).flush t = true) :
    (dats m 0 c).flushed 16 t = ((cfg0.win 16).blk t).view.read (Elt Ideal) (result m c) := by
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts t
  rw [Cert.KernelIdeal.Value.flushed16_A, block_eq, block_net, weights_eq]
  funext y
  show net (Weights.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (iblk m c 0 t) (y 0) (y 1)
    = net (Weights.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg0)) ((((cfg0.win 16).blk t).view.emb y) 0) ((((cfg0.win 16).blk t).view.emb y) 1)
  have h1 : (((cfg0.win 16).blk t).view.emb y) 1 = y 1 := Fin.ext (by
    show win0_16.index t (1 : Fin 2) * 32 + 1 * (y 1).val = (y 1).val
    rw [f16_1]; omega)
  rw [h1]
  refine net_congr _ _ _ (y 0) _ (fun i c' => ?_) (y 1)
  unfold iblk
  show V m c main_arg0 (((cfg0.win 0).blk t).view.emb (ix3 (y 0) i c'))
    = m ((c : Thread nD τ).loc main_arg0) (ix3 ((((cfg0.win 16).blk t).view.emb y) 0) i c')
  rw [V_main_arg0]
  refine congrArg _ (funext fun a => Fin.ext ?_)
  match a with
  | ⟨0, _⟩ =>
    show win0_0.index t (0 : Fin 3) * 8 + 1 * (y 0).val = win0_16.index t (0 : Fin 2) * 8 + 1 * (y 0).val
    rw [f0_0, f16_0]
  | ⟨1, _⟩ => show win0_0.index t (1 : Fin 3) * 64 + 1 * i.val = i.val; rw [f0_1]; omega
  | ⟨2, _⟩ => show win0_0.index t (2 : Fin 3) * 26 + 1 * c'.val = c'.val; rw [f0_2]; omega

/-- An index of the output array is in point `t`'s block iff each coordinate is in the block's range. -/
theorem mem_blk (t : Fin cfg0.N) (i : S64x32.Idx) :
    i ∈ ((cfg0.win 16).blk t).view.set
      ↔ ∀ a : Fin 2, win0_16.index t a * S8x32.size a ≤ (i a).val ∧ (i a).val < win0_16.index t a * S8x32.size a + S8x32.size a := by
  show i ∈ ((View.whole main_v2).slice (win0_16.rect t)).set ↔ _
  rw [View.set_slice_whole, Rect.mem_set_unit]
  exact Iff.rfl

/-- Row `r` of the output is written by point `r / 8`. -/
theorem cover (i : S64x32.Idx) : ∃ t : Fin cfg0.N, (cfg0.win 16).flush t = true ∧ i ∈ ((cfg0.win 16).blk t).view.set := by
  have h0 : (i 0).val < 64 := (i 0).isLt
  have h1 : (i 1).val < 32 := (i 1).isLt
  have ht : (i 0).val / 8 < cfg0.N := by show (i 0).val / 8 < 8; omega
  obtain ⟨f0_0, f0_1, f0_2, f16_0, f16_1, f1_0, f1_1, f2_0, f2_1, f3_0, f4_0, f4_1, f5_0, f6_0, f6_1, f7_0, f8_0, f8_1, f9_0, f10_0, f10_1, f11_0, f12_0, f12_1, f13_0, f14_0, f14_1, f15_0⟩ := idx_facts ⟨(i 0).val / 8, ht⟩
  refine ⟨⟨(i 0).val / 8, ht⟩, flush0_16 _, ?_⟩
  rw [mem_blk]
  intro a
  match a with
  | ⟨0, _⟩ =>
    show win0_16.index ⟨(i 0).val / 8, ht⟩ (0 : Fin 2) * 8 ≤ (i 0).val ∧ (i 0).val < win0_16.index ⟨(i 0).val / 8, ht⟩ (0 : Fin 2) * 8 + 8
    rw [f16_0]; show (i 0).val / 8 * 8 ≤ (i 0).val ∧ (i 0).val < (i 0).val / 8 * 8 + 8; omega
  | ⟨1, _⟩ =>
    show win0_16.index ⟨(i 0).val / 8, ht⟩ (1 : Fin 2) * 32 ≤ (i 1).val ∧ (i 1).val < win0_16.index ⟨(i 0).val / 8, ht⟩ (1 : Fin 2) * 32 + 32
    rw [f16_1]; omega

/-- The output array after the run. -/
theorem final (c : Dev nD) : (dats m 0 c).arrAt 16 cfg0.N = result m c :=
  (dats m 0 c).arrAt_eq_of_cover 16 (result m c) (fun t hf => flushed_eq m c t hf) cover

/-- The kernel's run: the output array at the network of the argument arrays, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Cert.KernelIdeal.Value.run_blocks m ρ)

end Cert.KernelIdeal.Whole

end
-- ==== Proof.RefValue.lean ====
/-
  The reference, read entry by entry: it lays every ordered pair of an entry's feature rows side by side as one row of
  52 numbers (row `j` first, then row `i`), 262144 rows in all, applies the first matrix and three more rectified dense
  layers to all rows at once, sums each entry's 4096 rows, and applies the last three layers. Row `(64 n + i) 64 + j`
  is pair `(i, j)` of entry `n`; a product with the 52-row matrix is the product with its rows 0–25 plus the product
  with its rows 26–51. So the reference computes the network of Net.lean.
-/
import proofs.«102810_j10711648436521_2_alg».proof.Proof.Gen.ReferenceIdeal.Read
import proofs.«102810_j10711648436521_2_alg».proof.Proof.Net
import proofs.«102810_j10711648436521_2_alg».proof.Proof.LibBlocks
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read Cert.PairNet
open Idealize.ShloMosaic Idealize.ShloMosaic.ValueIdx
open scoped BigOperators

/-- The row of the 262144-row arrays that holds pair `(i, j)` of entry `n`. -/
def pairIdx (n i j : Fin 64) : Fin 262144 :=
  ⟨(n.val * 64 + i.val) * 64 + j.val, by have := n.isLt; have := i.isLt; have := j.isLt; omega⟩

variable (x0 : (⟨S64x64x26, .f32⟩ : BufTy).Contents (Elt Ideal)) (x1 : (⟨S52x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x32, .f32⟩ : BufTy).Contents (Elt Ideal)) (x14 : (⟨S32, .f32⟩ : BufTy).Contents (Elt Ideal))

/-! ## The first layer -/

/-- Columns 0–25 of a pair's row of 52 are feature row `j`. -/
theorem pair_left (n i j : Fin 64) (h : Fin 256) (c : Fin 26) :
    val_main_v5 (F := Ideal) x0 (lidx_main_v6 (ix2 (pairIdx n i j) h) (Fin.castAdd 26 c)) = x0 (ix3 n j c) := by
  have hn := n.isLt; have hi := i.isLt; have hj := j.isLt; have hc := c.isLt
  rw [val_main_v5_apply]
  unfold val_main_v4
  refine (concatenate_pair_apply_left (t := S64x64x64x52) (s₁ := S64x64x64x26) (s₂ := S64x64x64x26) (3 : Fin 4)
    (val_main_v1 (F := Ideal) x0) (val_main_v3 (F := Ideal) x0) concatenates_S64x64x64x26_S64x64x64x26_S64x64x64x52_d3
    (idx_main_v5 (lidx_main_v6 (ix2 (pairIdx n i j) h) (Fin.castAdd 26 c))) rfl (ix4 n i j c) (fun b => ?_)).trans ?_
  · match b with
    | ⟨0, _⟩ => show n.val = (((n.val * 64 + i.val) * 64 + j.val) * 52 + c.val) / 212992; omega
    | ⟨1, _⟩ => show i.val = (((n.val * 64 + i.val) * 64 + j.val) * 52 + c.val) / 3328 % 64; omega
    | ⟨2, _⟩ => show j.val = (((n.val * 64 + i.val) * 64 + j.val) * 52 + c.val) / 52 % 64; omega
    | ⟨3, _⟩ => show c.val = (((n.val * 64 + i.val) * 64 + j.val) * 52 + c.val) % 52; omega
  · rw [val_main_v1_apply, val_main_v0_apply]
    exact congrArg x0 (funext fun a => by match a with | ⟨0, _⟩ => rfl | ⟨1, _⟩ => rfl | ⟨2, _⟩ => rfl)

/-- Columns 26–51 of a pair's row of 52 are feature row `i`. -/
theorem pair_right (n i j : Fin 64) (h : Fin 256) (c : Fin 26) :
    val_main_v5 (F := Ideal) x0 (lidx_main_v6 (ix2 (pairIdx n i j) h) (Fin.natAdd 26 c)) = x0 (ix3 n i c) := by
  have hn := n.isLt; have hi := i.isLt; have hj := j.isLt; have hc := c.isLt
  rw [val_main_v5_apply]
  unfold val_main_v4
  refine (concatenate_pair_apply_right (t := S64x64x64x52) (s₁ := S64x64x64x26) (s₂ := S64x64x64x26) (3 : Fin 4)
    (val_main_v1 (F := Ideal) x0) (val_main_v3 (F := Ideal) x0) concatenates_S64x64x64x26_S64x64x64x26_S64x64x64x52_d3
    (idx_main_v5 (lidx_main_v6 (ix2 (pairIdx n i j) h) (Fin.natAdd 26 c))) rfl rfl (ix4 n i j c) (fun b hb => ?_) ?_).trans ?_
  · match b with
    | ⟨0, _⟩ => show n.val = (((n.val * 64 + i.val) * 64 + j.val) * 52 + (26 + c.val)) / 212992; omega
    | ⟨1, _⟩ => show i.val = (((n.val * 64 + i.val) * 64 + j.val) * 52 + (26 + c.val)) / 3328 % 64; omega
    | ⟨2, _⟩ => show j.val = (((n.val * 64 + i.val) * 64 + j.val) * 52 + (26 + c.val)) / 52 % 64; omega
    | ⟨3, _⟩ => exact absurd rfl hb
  · show c.val + 26 = (((n.val * 64 + i.val) * 64 + j.val) * 52 + (26 + c.val)) % 52
    omega
  · rw [val_main_v3_apply, val_main_v2_apply]
    exact congrArg x0 (funext fun a => by match a with | ⟨0, _⟩ => rfl | ⟨1, _⟩ => rfl | ⟨2, _⟩ => rfl)

/-- The first layer at pair `(i, j)` of entry `n`. -/
theorem ref_first (n i j : Fin 64) (h : Fin 256) :
    val_main_v10 (F := Ideal) x0 x1 x2 (ix2 (pairIdx n i j) h) = first (Weights.ofArrays x1 x2 x3 x4 x5 x6 x7 x8 x9 x10 x11 x12 x13 x14) x0 n i j h := by
  rw [val_main_v10_apply, val_main_v9_apply, val_main_v6_apply, val_main_v8_apply, val_main_v7_apply,
    val_main_call0_v0_apply, val_main_call0_cst_apply, sum52]
  have hr : ∀ k : Fin 52, ridx_main_v6 (ix2 (pairIdx n i j) h) k = ix2 k h := fun k => funext fun a => by
    match a with | ⟨0, _⟩ => rfl | ⟨1, _⟩ => rfl
  have hb : idx_main_v7 (idx_main_v8 (ix2 (pairIdx n i j) h)) = ix1 h := funext fun a => by
    match a with | ⟨0, _⟩ => rfl
  simp only [pair_left, pair_right, hr, hb]
  exact congrArg (fun z : EReal => max (z + x2 (ix1 h)) (Ideal.ofBits .f32 0x00000000#32)) (add_comm _ _)

/-! ## The hidden layers, the pooling, the last layers -/

/-- The second layer, row by row. -/
theorem ref_hidden1 (R : Fin 262144) (q : Fin 256) :
    val_main_v15 (F := Ideal) x0 x1 x2 x3 x4 (ix2 R q)
      = layer x3 x4 (fun k => val_main_v10 (F := Ideal) x0 x1 x2 (ix2 R k)) q := by
  rw [val_main_v15_apply, val_main_v14_apply, val_main_v11_apply, val_main_v13_apply, val_main_v12_apply,
    val_main_call1_v0_apply, val_main_call1_cst_apply]
  have el : ∀ k : Fin 256, lidx_main_v11 (ix2 R q) k = ix2 R k := fun k => funext fun a => by
    match a with | ⟨0, _⟩ => rfl | ⟨1, _⟩ => rfl
  have er : ∀ k : Fin 256, ridx_main_v11 (ix2 R q) k = ix2 k q := fun k => funext fun a => by
    match a with | ⟨0, _⟩ => rfl | ⟨1, _⟩ => rfl
  have eb : idx_main_v12 (idx_main_v13 (ix2 R q)) = ix1 q := funext fun a => by
    match a with | ⟨0, _⟩ => rfl
  simp only [el, er, eb]
  rfl

/-- The third layer, row by row. -/
theorem ref_hidden2 (R : Fin 262144) (q : Fin 256) :
    val_main_v20 (F := Ideal) x0 x1 x2 x3 x4 x5 x6 (ix2 R q)
      = layer x5 x6 (fun k => val_main_v15 (F := Ideal) x0 x1 x2 x3 x4 (ix2 R k)) q := by
  rw [val_main_v20_apply, val_main_v19_apply, val_main_v16_apply, val_main_v18_apply, val_main_v17_apply,
    val_main_call2_v0_apply, val_main_call2_cst_apply]
  have el : ∀ k : Fin 256, lidx_main_v16 (ix2 R q) k = ix2 R k := fun k => funext fun a => by
    match a with | ⟨0, _⟩ => rfl | ⟨1, _⟩ => rfl
  have er : ∀ k : Fin 256, ridx_main_v16 (ix2 R q) k = ix2 k q := fun k => funext fun a => by
    match a with | ⟨0, _⟩ => rfl | ⟨1, _⟩ => rfl
  have eb : idx_main_v17 (idx_main_v18 (ix2 R q)) = ix1 q := funext fun a => by
    match a with | ⟨0, _⟩ => rfl
  simp only [el, er, eb]
  rfl

/-- The fourth layer, row by row. -/
theorem ref_hidden3 (R : Fin 262144) (q : Fin 256) :
    val_main_v25 (F := Ideal) x0 x1 x2 x3 x4 x5 x6 x7 x8 (ix2 R q)
      = layer x7 x8 (fun k => val_main_v20 (F := Ideal) x0 x1 x2 x3 x4 x5 x6 (ix2 R k)) q := by
  rw [val_main_v25_apply, val_main_v24_apply, val_main_v21_apply, val_main_v23_apply, val_main_v22_apply,
    val_main_call3_v0_apply, val_main_call3_cst_apply]
  have el : ∀ k : Fin 256, lidx_main_v21 (ix2 R q) k = ix2 R k := fun k => funext fun a => by
    match a with | ⟨0, _⟩ => rfl | ⟨1, _⟩ => rfl
  have er : ∀ k : Fin 256, ridx_main_v21 (ix2 R q) k = ix2 k q := fun k => funext fun a => by
    match a with | ⟨0, _⟩ => rfl | ⟨1, _⟩ => rfl
  have eb : idx_main_v22 (idx_main_v23 (ix2 R q)) = ix1 q := funext fun a => by
    match a with | ⟨0, _⟩ => rfl
  simp only [el, er, eb]
  rfl

/-- The sum of an entry's 4096 rows, as the double sum over its pairs. -/
theorem ref_pool (n : Fin 64) (q : Fin 256) :
    val_main_v27 (F := Ideal) x0 x1 x2 x3 x4 x5 x6 x7 x8 (ix2 n q)
      = ∑ i : Fin 64, ∑ j : Fin 64, val_main_v25 (F := Ideal) x0 x1 x2 x3 x4 x5 x6 x7 x8 (ix2 (pairIdx n i j) q) := by
  have hn := n.isLt; have hq := q.isLt
  rw [val_main_v27_apply, val_main_cst_apply, Ideal.ofBits_def, Ideal.ofBits_zero_f32, zero_add,
    Cert.LibBlocks.sum_entries (A := 64) (B := 64)]
  refine Finset.sum_congr rfl fun i _ => Finset.sum_congr rfl fun j _ => ?_
  have hi := i.isLt; have hj := j.isLt
  rw [val_main_v26_apply]
  refine congrArg (val_main_v25 (F := Ideal) x0 x1 x2 x3 x4 x5 x6 x7 x8) (funext fun a => Fin.ext ?_)
  match a with
  | ⟨0, _⟩ =>
    show ((n.val * 4096 + (i.val * 64 + j.val)) * 256 + q.val) / 256 = (n.val * 64 + i.val) * 64 + j.val
    omega
  | ⟨1, _⟩ =>
    show ((n.val * 4096 + (i.val * 64 + j.val)) * 256 + q.val) % 256 = q.val
    omega

/-- The fifth layer, on the pooled rows. -/
theorem ref_tail1 (n : Fin 64) (q : Fin 256) :
    val_main_v32 (F := Ideal) x0 x1 x2 x3 x4 x5 x6 x7 x8 x9 x10 (ix2 n q)
      = layer x9 x10 (fun k => val_main_v27 (F := Ideal) x0 x1 x2 x3 x4 x5 x6 x7 x8 (ix2 n k)) q := by
  rw [val_main_v32_apply, val_main_v31_apply, val_main_v28_apply, val_main_v30_apply, val_main_v29_apply,
    val_main_call4_v0_apply, val_main_call4_cst_apply]
  have el : ∀ k : Fin 256, lidx_main_v28 (ix2 n q) k = ix2 n k := fun k => funext fun a => by
    match a with | ⟨0, _⟩ => rfl | ⟨1, _⟩ => rfl
  have er : ∀ k : Fin 256, ridx_main_v28 (ix2 n q) k = ix2 k q := fun k => funext fun a => by
    match a with | ⟨0, _⟩ => rfl | ⟨1, _⟩ => rfl
  have eb : idx_main_v29 (idx_main_v30 (ix2 n q)) = ix1 q := funext fun a => by
    match a with | ⟨0, _⟩ => rfl
  simp only [el, er, eb]
  rfl

/-- The sixth layer. -/
theorem ref_tail2 (n : Fin 64) (q : Fin 256) :
    val_main_v37 (F := Ideal) x0 x1 x2 x3 x4 x5 x6 x7 x8 x9 x10 x11 x12 (ix2 n q)
      = layer x11 x12 (fun k => val_main_v32 (F := Ideal) x0 x1 x2 x3 x4 x5 x6 x7 x8 x9 x10 (ix2 n k)) q := by
  rw [val_main_v37_apply, val_main_v36_apply, val_main_v33_apply, val_main_v35_apply, val_main_v34_apply,
    val_main_call5_v0_apply, val_main_call5_cst_apply]
  have el : ∀ k : Fin 256, lidx_main_v33 (ix2 n q) k = ix2 n k := fun k => funext fun a => by
    match a with | ⟨0, _⟩ => rfl | ⟨1, _⟩ => rfl
  have er : ∀ k : Fin 256, ridx_main_v33 (ix2 n q) k = ix2 k q := fun k => funext fun a => by
    match a with | ⟨0, _⟩ => rfl | ⟨1, _⟩ => rfl
  have eb : idx_main_v34 (idx_main_v35 (ix2 n q)) = ix1 q := funext fun a => by
    match a with | ⟨0, _⟩ => rfl
  simp only [el, er, eb]
  rfl

/-- The last layer: no rectifier. -/
theorem ref_last (n : Fin 64) (q : Fin 32) :
    val_main_v41 (F := Ideal) x0 x1 x2 x3 x4 x5 x6 x7 x8 x9 x10 x11 x12 x13 x14 (ix2 n q)
      = affine x13 x14 (fun k => val_main_v37 (F := Ideal) x0 x1 x2 x3 x4 x5 x6 x7 x8 x9 x10 x11 x12 (ix2 n k)) q := by
  rw [val_main_v41_apply, val_main_v38_apply, val_main_v40_apply, val_main_v39_apply]
  have el : ∀ k : Fin 256, lidx_main_v38 (ix2 n q) k = ix2 n k := fun k => funext fun a => by
    match a with | ⟨0, _⟩ => rfl | ⟨1, _⟩ => rfl
  have er : ∀ k : Fin 256, ridx_main_v38 (ix2 n q) k = ix2 k q := fun k => funext fun a => by
    match a with | ⟨0, _⟩ => rfl | ⟨1, _⟩ => rfl
  have eb : idx_main_v39 (idx_main_v40 (ix2 n q)) = ix1 q := funext fun a => by
    match a with | ⟨0, _⟩ => rfl
  simp only [el, er, eb]
  rfl

/-! ## The reference is the network -/

theorem ref_eq : val_main_v41 (F := Ideal) x0 x1 x2 x3 x4 x5 x6 x7 x8 x9 x10 x11 x12 x13 x14 = netArr (Weights.ofArrays x1 x2 x3 x4 x5 x6 x7 x8 x9 x10 x11 x12 x13 x14) x0 := by
  funext y
  obtain ⟨n, q, rfl⟩ : ∃ (n : Fin 64) (q : Fin 32), y = ix2 n q := ⟨y 0, y 1, eq_ix2 y⟩
  rw [ref_last]
  simp only [ref_tail2, ref_tail1, ref_pool, ref_hidden3, ref_hidden2, ref_hidden1,
    ref_first x0 x1 x2 x3 x4 x5 x6 x7 x8 x9 x10 x11 x12 x13 x14]
  rfl

end Cert.ReferenceIdeal.RefValue

end
-- ==== Proof.lean ====
/-
  The certificate of a pairwise network: a Pallas kernel against its jnp reference, equal as extended reals.

  Both programs take 64 batch entries of 64 feature rows of 26 numbers and seven dense layers. For every ordered pair
  `(i, j)` of an entry's rows, the first layer is `rectify (x_j · W0[0:26] + x_i · W0[26:52] + b0)`; three rectified
  dense layers follow on each of the 4096 pair rows; the rows are summed column by column; two rectified dense layers
  and one plain dense layer map the sum to 32 numbers (Proof/Net.lean).

  The reference lays the two rows of a pair side by side and multiplies by the whole 52-row matrix; the kernel
  multiplies the 64 rows by each half of the matrix once and adds the two products pair by pair. The two agree because a
  sum over 52 columns is the sum over the first 26 plus the sum over the last 26, and addition of extended reals is
  commutative: no finiteness of the inputs is used. The kernel's changes of float format are the identity on the
  extended reals, its matrix products into a zero accumulator are the reference's, and its 4096-row buffer, filled whole
  by every layer, is read back as the layer just stored.

  Proof/KernelBlock.lean: what one grid point leaves in its 8 x 32 output block, as a value. Proof/KernelRows.lean: that
  value, entry by entry, is the network on the block's 8 entries. Proof/KernelValue.lean: the 8 blocks fill the output
  array. Proof/RefValue.lean: the reference's result is the network. The two frames of the kernel and the runs
  of both programs are the generated modules'; the idealization rewrote no operation.
-/
import proofs.«102810_j10711648436521_2_alg».proof.Defs
import proofs.«102810_j10711648436521_2_alg».proof.Proof.Gen.Kernel
import proofs.«102810_j10711648436521_2_alg».proof.Proof.Gen.Kernel.Skeleton
import proofs.«102810_j10711648436521_2_alg».proof.Proof.Gen.Kernel.Launch
import proofs.«102810_j10711648436521_2_alg».proof.Proof.Gen.Kernel.Points
import proofs.«102810_j10711648436521_2_alg».proof.Proof.Gen.Kernel.Frame
import proofs.«102810_j10711648436521_2_alg».proof.Proof.Gen.KernelIdeal
import proofs.«102810_j10711648436521_2_alg».proof.Proof.Gen.KernelIdeal.Skeleton
import proofs.«102810_j10711648436521_2_alg».proof.Proof.Gen.KernelIdeal.Launch
import proofs.«102810_j10711648436521_2_alg».proof.Proof.Gen.KernelIdeal.Points
import proofs.«102810_j10711648436521_2_alg».proof.Proof.Gen.KernelIdeal.Frame
import proofs.«102810_j10711648436521_2_alg».proof.Proof.Gen.ReferenceIdeal
import proofs.«102810_j10711648436521_2_alg».proof.Proof.Gen.Pre_finite_inputs
import proofs.«102810_j10711648436521_2_alg».proof.Proof.Gen.KernelIdeal.Value
import proofs.«102810_j10711648436521_2_alg».proof.Proof.Gen.ReferenceIdeal.Run
import proofs.«102810_j10711648436521_2_alg».proof.Proof.Gen.ReferenceIdeal.Read
import proofs.«102810_j10711648436521_2_alg».proof.Proof.KernelValue
import proofs.«102810_j10711648436521_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of the argument arrays in their result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v41_eq, Cert.ReferenceIdeal.RefValue.ref_eq, h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
